-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x32 : Shape := ⟨2, ![128, 32]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x32 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x32 : Shape := ⟨2, ![128, 32]⟩
abbrev S1600000 : Shape := ⟨1, ![1600000]⟩
abbrev S100000x32 : Shape := ⟨2, ![100000, 32]⟩
abbrev S10000x128 : Shape := ⟨2, ![10000, 128]⟩
abbrev S10000x32 : Shape := ⟨2, ![10000, 32]⟩
abbrev S1600000x1 : Shape := ⟨2, ![1600000, 1]⟩
abbrev S_ : Shape := ⟨0, ![]⟩
abbrev S1600000x32 : Shape := ⟨2, ![1600000, 32]⟩
abbrev S4000x32 : Shape := ⟨2, ![4000, 32]⟩

abbrev nBuf : Space → Nat
  | .hbm => 23
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x32, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S1600000x32, .f32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S4000x32, .f32⟩
  | .local _ .vmem, ⟨6, _⟩ => ⟨S4000x32, .f32⟩
  | .local _ .vmem, ⟨7, _⟩ => ⟨S4000x32, .f32⟩
  | .local _ .vmem, ⟨8, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .f32 = 32 ∨ (Rect.block (s := S100000x32) S4000x32.size (cc1_transform_1 i) (hinb1_1 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x32.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x32 : Shape := ⟨2, ![128, 32]⟩
abbrev S1600000 : Shape := ⟨1, ![1600000]⟩
abbrev S100000x32 : Shape := ⟨2, ![100000, 32]⟩
abbrev S1600000x1 : Shape := ⟨2, ![1600000, 1]⟩
abbrev S_ : Shape := ⟨0, ![]⟩
abbrev S1600000x32 : Shape := ⟨2, ![1600000, 32]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x32, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S1600000x32, .f32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S_, .f32⟩
  | .hbm, ⟨23, _⟩ => ⟨S100000x32, .f32⟩
  | .hbm, ⟨24, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.Layer.lean ====
/-
  One graph-convolution layer as a function of its five arrays, stated once so that both programs can be
  compared against it. With N = 100000 nodes, E = 1600000 edges, features X : [N,128], weights W : [128,32],
  and an edge list (row, col, val):

    support = X · W                                         (the projected features, [N,32])
    out[i]  = Σ over edges e with row_e = i of  val_e · support[col_e]      (a negative col_e counted from the end)
    result  = max(out, 0)

  The middle step is kept as one function of `support` and the edge list: both programs apply the very same
  host operations there, so it is never opened. The first step is the host's contraction with the plain
  dimension numbers; read at an entry it is the sum over the 128 contracted coordinates of the products.
-/
import proofs.«163304_j30339648979444_2_alg».proof.KernelIdeal
import proofs.«163304_j30339648979444_2_alg».proof.Proof.LibPlainDot
import Idealize.ShloMosaic.PureOps.Ideal
import Idealize.ShloMosaic.Lib.ValueIdx

noncomputable section

open scoped BigOperators

namespace Cert.GraphLayer

open Idealize.ShloMosaic Idealize.ShloMosaic.ValueIdx
open Cert.KernelIdeal

variable {F : FTy → Type} [FloatOps F] [Cert.KernelIdeal.Facts]
open Cert.KernelIdeal.Facts₀

/-- The projected features: the contraction of the features' second axis with the weights' first. -/
def project (x : (⟨S100000x128, .f32⟩ : BufTy).Contents (Elt F)) (w : (⟨S128x32, .f32⟩ : BufTy).Contents (Elt F)) :
    (⟨S100000x32, .f32⟩ : BufTy).Contents (Elt F) :=
  Host.dotGeneral (DotDims.plain 100000 128 32) none x w

/-- The sparse product with the adjacency in coordinate form: each edge takes the projected row of its source node
    (an index below zero counted from the end), scales it by the edge's value, and the scaled rows are summed into
    the row of the edge's target node, starting from zero. -/
def aggregate (support : (⟨S100000x32, .f32⟩ : BufTy).Contents (Elt F)) (row col : (⟨S1600000, .i32⟩ : BufTy).Contents (Elt F))
    (val : (⟨S1600000, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 row)
    (mulf (broadcastInDim S1600000x32 ![0, 1] bcast_S1600000x1_S1600000x32_0_1 (broadcastInDim S1600000x1 ![0] bcast_S1600000_S1600000x1_0 val))
      (Host.gather gather_S100000x32_S1600000x1_S1600000x32_1_0_n_n_0_1_132 support
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The activation: the entrywise maximum with zero. -/
def relu (y : (⟨S100000x32, .f32⟩ : BufTy).Contents (Elt F)) : (⟨S100000x32, .f32⟩ : BufTy).Contents (Elt F) :=
  maximumf y (broadcastInDim S100000x32 ![] bcast_S_S100000x32 (constant (F := F) S_ .f32 0x00000000#32))

/-- The layer. -/
def layer (x : (⟨S100000x128, .f32⟩ : BufTy).Contents (Elt F)) (w : (⟨S128x32, .f32⟩ : BufTy).Contents (Elt F))
    (row col : (⟨S1600000, .i32⟩ : BufTy).Contents (Elt F)) (val : (⟨S1600000, .f32⟩ : BufTy).Contents (Elt F)) :
    (⟨S100000x32, .f32⟩ : BufTy).Contents (Elt F) :=
  relu (aggregate (project x w) row col val)

/-- On the extended reals an entry of the projected features is the sum, over the contracted coordinate, of the
    products of the features' row with the weights' column. -/
theorem project_apply (x : (⟨S100000x128, .f32⟩ : BufTy).Contents (Elt Ideal)) (w : (⟨S128x32, .f32⟩ : BufTy).Contents (Elt Ideal))
    (p : Fin 100000) (q : Fin 32) :
    project (F := Ideal) x w (ix2 p q) = ∑ k : Fin 128, x (ix2 p k) * w (ix2 k q) :=
  Cert.Lib.PlainDot.plain_dotGeneral_apply none .single x w p q

/-- An entry of the activation is the maximum of the operand's entry with the zero word's value. -/
theorem relu_apply (y : (⟨S100000x32, .f32⟩ : BufTy).Contents (Elt F)) (i : S100000x32.Idx) :
    relu y i = FloatOps.maximumf (y i) (FloatOps.ofBits .f32 0x00000000#32) := rfl

end Cert.GraphLayer

end
-- ==== Proof.KernelRun.lean ====
/-
  The kernel program's run with its result array named. The program is three stretches: a gridded matrix product
  that writes the projected features, a stretch of host operations (gather by source node, weighting, scatter-add
  by target node), and a gridded pointwise maximum with zero. The generated frame proves that every fair execution
  terminates without a fault with the arguments unchanged, by reading every unscoped buffer of the final state
  against the contents at the last boundary; read at the result buffer, the same run says what the result holds:
  the second gridded stretch's output array after all of its write-backs.
-/
import proofs.«163304_j30339648979444_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    contents of the last boundary at that buffer, and the five arguments are as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Named

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.ProjectBlocks.lean ====
/-
  The first gridded stretch: ten points, point t multiplying rows 10000·t … 10000·t + 9999 of the features by the
  whole weight matrix and writing the product into the same rows of the projected features. On the extended reals
  the narrowing of both operands to the short float format is the identity and the matrix unit's product into a
  zero accumulator is the plain sum of products, so what point t writes back is rows 10000·t … of ONE function of
  the two arrays, the host's contraction `project`. The ten row blocks tile the array, so after the stretch the
  array holds `project` of the features and weights as the stretch found them.
-/
import proofs.«163304_j30339648979444_2_alg».proof.Proof.Gen.KernelIdeal.Frame
import proofs.«163304_j30339648979444_2_alg».proof.Proof.Layer
import proofs.«163304_j30339648979444_2_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjectBlocks

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's product at an entry of its block: the sum over the 128 contracted coordinates. -/
theorem product_apply (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  exact Cert.Lib.PlainMatmul.plain_matmul_zero_apply (M := 10000) (K := 128) (N := 32) _ _ p q

/-- A block of rows of the product is the same rows of the whole contraction: if the left block holds rows
    10000·b + p of the features and the right block is the weights, the body's entry (p, q) is the contraction's
    entry (10000·b + p, q). -/
theorem block_entry (x0 : Vec Ideal S10000x128 .f32) (x1 : Vec Ideal S128x32 .f32)
    (a0 : (⟨S100000x128, .f32⟩ : BufTy).Contents (Elt Ideal)) (a1 : (⟨S128x32, .f32⟩ : BufTy).Contents (Elt Ideal)) (b : ℕ)
    (h0 : ∀ (p : Fin 10000) (k : Fin 128) (P : Fin 100000), P.val = b * 10000 + p.val → x0 (ix2 p k) = a0 (ix2 P k))
    (h1 : ∀ (k : Fin 128) (q : Fin 32), x1 (ix2 k q) = a1 (ix2 k q))
    (j : S10000x32.Idx) (i : S100000x32.Idx) (hi0 : (i 0).val = b * 10000 + (j 0).val) (hi1 : (i 1).val = (j 1).val) :
    k0_pay1 (F := Ideal) x0 x1 j = project a0 a1 i := by
  obtain ⟨p, q, rfl⟩ : ∃ (p : Fin 10000) (q : Fin 32), j = ix2 p q := ⟨j 0, j 1, eq_ix2 j⟩
  obtain ⟨P, Q, rfl⟩ : ∃ (P : Fin 100000) (Q : Fin 32), i = ix2 P Q := ⟨i 0, i 1, eq_ix2 i⟩
  obtain rfl : Q = q := Fin.ext hi1
  rw [product_apply, project_apply]
  exact Finset.sum_congr rfl fun k _ => by rw [h0 p k P hi0, h1 k Q]

/-- The printed index maps over the ten points: the features' block and the result's block sit at block row t,
    every other block index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the contraction of the two arrays as the stretch finds them. -/
theorem flushed_eq (c : Dev nD) (t : Fin cfg0.N) :
    (dat0 V c).flushed 2 t = ((cfg0.win 2).blk t).view.read (Elt Ideal) (project (V c main_arg0) (V c main_arg1)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x32) origin]
  obtain ⟨e0, e1, e2, e3, e4, e5⟩ := index_facts t
  funext j
  rw [View.read_apply]
  refine block_entry (iblk0 V c 0 t) (iblk0 V c 1 t) (V c main_arg0) (V c main_arg1) (win0_2.index t (0 : Fin 2))
    (fun p k P hP => ?_) (fun k q => ?_) j _ ?_ ?_
  · unfold iblk0
    rw [View.read_apply]
    show V c main_arg0 _ = V c main_arg0 _
    congr 1
    funext a
    apply Fin.ext
    match a with
    | ⟨0, _⟩ => show win0_0.index t (0 : Fin 2) * 10000 + 1 * p.val = P.val; omega
    | ⟨1, _⟩ => show win0_0.index t (1 : Fin 2) * 128 + 1 * k.val = k.val; omega
  · unfold iblk0
    rw [View.read_apply]
    show V c main_arg1 _ = V c main_arg1 _
    congr 1
    funext a
    apply Fin.ext
    match a with
    | ⟨0, _⟩ => show win0_1.index t (0 : Fin 2) * 128 + 1 * k.val = k.val; omega
    | ⟨1, _⟩ => show win0_1.index t (1 : Fin 2) * 32 + 1 * q.val = q.val; omega
  · show win0_2.index t (0 : Fin 2) * 10000 + 1 * (j 0).val = _; omega
  · show win0_2.index t (1 : Fin 2) * 32 + 1 * (j 1).val = _; omega

/-- An index of the array is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- Every row of the array lies in the block of the point numbered by the row's quotient by 10000. -/
theorem cover (i : S100000x32.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 32 := (i 1).isLt
  let t : Fin cfg0.N := ⟨(i 0).val / 10000, by show (i 0).val / 10000 < grid0.N; omega⟩
  obtain ⟨e0, e1, e2, e3, e4, e5⟩ := index_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After the ten write-backs the projected-features array is the contraction of the features and the weights. -/
theorem final (c : Dev nD) : (dat0 V c).arrAt 2 cfg0.N = project (V c main_arg0) (V c main_arg1) :=
  (dat0 V c).arrAt_eq_of_cover 2 (project (V c main_arg0) (V c main_arg1)) (fun t _ => flushed_eq V c t) cover

end Cert.KernelIdeal.ProjectBlocks

end
-- ==== Proof.ReluBlocks.lean ====
/-
  The second gridded stretch: twenty-five points, point t taking rows 4000·t … 4000·t + 3999 of its input array,
  the entrywise maximum with zero, into the same rows of the result. The body's value at an entry depends only on
  the input's entry at the same place, so what point t writes back is rows 4000·t … of the activation of the whole
  input array; the twenty-five row blocks tile the result, which therefore ends as the activation of the input as
  the stretch found it. Nothing here depends on the float instance.
-/
import proofs.«163304_j30339648979444_2_alg».proof.Proof.Gen.KernelIdeal.Frame
import proofs.«163304_j30339648979444_2_alg».proof.Proof.Layer
import Idealize.ShloMosaic.Lib.Pipeline.Value
import Idealize.ShloMosaic.Lib.ValueIdx

set_option maxRecDepth 16384

noncomputable section

namespace Cert.KernelIdeal.ReluBlocks

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's value at an entry: the maximum of the loaded entry with the zero word's value (the reshape to the
    same shape reads the same entry). -/
theorem body_apply (x0 : Vec F S4000x32 .f32) (j : S4000x32.Idx) :
    k1_pay1 (F := F) x0 j = FloatOps.maximumf (x0 j) (FloatOps.ofBits .f32 0x00000000#32) := by
  unfold k1_pay1
  rw [shapeCast_self]
  rfl

/-- A block of rows of the body's result is the same rows of the activation of the whole array. -/
theorem block_entry (x0 : Vec F S4000x32 .f32) (y : (⟨S100000x32, .f32⟩ : BufTy).Contents (Elt F))
    (j : S4000x32.Idx) (i : S100000x32.Idx) (h : x0 j = y i) :
    k1_pay1 (F := F) x0 j = relu y i := by
  rw [body_apply, relu_apply, h]

/-- The result's printed index map over the twenty-five points: block row t, block column zero (the input's index
    map is the same function). -/
theorem index_facts : ∀ t : Fin cfg1.N, win1_1.index t (0 : Fin 2) = t.val
    ∧ win1_1.index t (1 : Fin 2) = 0 :=
  (by decide +kernel : ∀ t : Fin grid1.N, _)

/-- What point t writes back is block t of the activation of the input array as the stretch finds it. -/
theorem flushed_eq (c : Dev nD) (t : Fin cfg1.N) :
    (dat1 V c).flushed 1 t = ((cfg1.win 1).blk t).view.read (Elt F) (relu (V c main_v13)) := by
  show (cfg1.win 1).cut (grid1.coords t) ((dat1 V c).after 1 t) = _
  rw [after1_1]
  unfold out1_1
  rw [View.canon_unit_zero origin]
  simp only [View.ld_unit_zero (S := S4000x32) origin]
  funext j
  rw [View.read_apply]
  refine block_entry (iblk1 V c 0 t) (V c main_v13) j _ ?_
  unfold iblk1
  rw [View.read_apply]
  -- the input's block and the result's block at point t are the same rectangle of rows
  show V c main_v13 _ = V c main_v13 _
  congr 1

/-- An index of the array is in point t's block iff each coordinate is in the block's range on its axis. -/
theorem mem_blk (t : Fin cfg1.N) (i : S100000x32.Idx) :
    i ∈ ((cfg1.win 1).blk t).view.set ↔ ∀ a : Fin 2, win1_1.index t a * S4000x32.size a ≤ (i a).val ∧ (i a).val < win1_1.index t a * S4000x32.size a + S4000x32.size a := by
  show i ∈ ((View.whole main_v14).slice (win1_1.rect t)).set ↔ _
  rw [View.set_slice_whole, Rect.mem_set_unit]
  exact Iff.rfl

/-- Every row of the array lies in the block of the point numbered by the row's quotient by 4000. -/
theorem cover (i : S100000x32.Idx) : ∃ t : Fin cfg1.N, (cfg1.win 1).flush t = true ∧ i ∈ ((cfg1.win 1).blk t).view.set := by
  have hN : grid1.N = 25 := N_1
  have hi0 : (i 0).val < 100000 := (i 0).isLt
  have hi1 : (i 1).val < 32 := (i 1).isLt
  let t : Fin cfg1.N := ⟨(i 0).val / 4000, by show (i 0).val / 4000 < grid1.N; omega⟩
  obtain ⟨e2, e3⟩ := index_facts t
  have ht : t.val = (i 0).val / 4000 := rfl
  refine ⟨t, flush1_1 t, ?_⟩
  rw [mem_blk]
  intro a
  match a with
  | ⟨0, _⟩ => show win1_1.index t (0 : Fin 2) * 4000 ≤ (i 0).val ∧ (i 0).val < win1_1.index t (0 : Fin 2) * 4000 + 4000; omega
  | ⟨1, _⟩ => show win1_1.index t (1 : Fin 2) * 32 ≤ (i 1).val ∧ (i 1).val < win1_1.index t (1 : Fin 2) * 32 + 32; omega

/-- After the twenty-five write-backs the result array is the activation of the stretch's input array. -/
theorem final (c : Dev nD) : (dat1 V c).arrAt 1 cfg1.N = relu (V c main_v13) :=
  (dat1 V c).arrAt_eq_of_cover 1 (relu (V c main_v13)) (fun t _ => flushed_eq V c t) cover

end Cert.KernelIdeal.ReluBlocks

end
-- ==== Proof.KernelValue.lean ====
/-
  The kernel program's result as the layer of its arguments, on the extended reals. Reading the contents at the
  last boundary backwards: the result array is the second gridded stretch's output, the activation of that
  stretch's input array; that input is what the host stretch between the two leaves in its last buffer — the
  sparse product applied to the projected features and the edge list, its sixteen operations composed —; the
  projected features are the first gridded stretch's output, the contraction of the features and weights; and the
  features, the weights and the edge list are the launch memory's, since nothing before their use writes them.
-/
import proofs.«163304_j30339648979444_2_alg».proof.Proof.Gen.KernelIdeal.Frame
import proofs.«163304_j30339648979444_2_alg».proof.Proof.Layer
import proofs.«163304_j30339648979444_2_alg».proof.Proof.ProjectBlocks
import proofs.«163304_j30339648979444_2_alg».proof.Proof.ReluBlocks
import Idealize.ShloMosaic.Lib.StableHlo.Run

set_option maxRecDepth 16384

noncomputable section

namespace Cert.KernelIdeal.LayerValue

open Cert.KernelIdeal Cert.KernelIdeal.Gen Cert.GraphLayer
open Idealize.ShloMosaic Idealize.ShloMosaic.TcCoe Idealize.SL.Sem Idealize.ShloMosaic.StableHlo

variable (m : (ℓ : Loc nD τ sig) → Buf (Elt Ideal) ℓ) (ρ : Dev nD → PrngReg)

/-- The projected features after the first stretch: the contraction of the launch memory's features and weights. -/
theorem support_eq (c : Dev nD) :
    W1 m ρ c (Proc.devRef .tc main_v0) = project (m ((c : Thread nD τ).loc main_arg0)) (m ((c : Thread nD τ).loc main_arg1)) :=
  (W1_arr m ρ c 2).trans (ProjectBlocks.final (V0 m ρ) c)

/-- The edge list is not written by the first stretch. -/
theorem row_eq (c : Dev nD) : W1 m ρ c (Proc.devRef .tc main_arg2) = m ((c : Thread nD τ).loc main_arg2) :=
  W1_of_ne m ρ c main_arg2 (by decide)
theorem col_eq (c : Dev nD) : W1 m ρ c (Proc.devRef .tc main_arg3) = m ((c : Thread nD τ).loc main_arg3) :=
  W1_of_ne m ρ c main_arg3 (by decide)
theorem val_eq (c : Dev nD) : W1 m ρ c (Proc.devRef .tc main_arg4) = m ((c : Thread nD τ).loc main_arg4) :=
  W1_of_ne m ρ c main_arg4 (by decide)

/-- The host stretch leaves in its last buffer the sparse product of the projected features and the edge list as it
    finds them. -/
theorem middle_eq (c : Dev nD) :
    V2 m ρ c main_v13 = aggregate (W1 m ρ c (Proc.devRef .tc main_v0)) (W1 m ρ c (Proc.devRef .tc main_arg2))
      (W1 m ρ c (Proc.devRef .tc main_arg3)) (W1 m ρ c (Proc.devRef .tc main_arg4)) := by
  show StableHlo.after hostOps1 (W1 m ρ c) (Proc.devRef .tc main_v13) = _
  after_results
  rfl

/-- The result array at the last boundary is the layer of the launch memory's five arguments. -/
theorem result_eq (c : Dev nD) :
    W3 m ρ c (Proc.devRef .tc main_v14) = layer (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m ρ c 1).trans ((ReluBlocks.final (V2 m ρ) c).trans ?_)
  rw [middle_eq, support_eq, row_eq, col_eq, val_eq]
  rfl

end Cert.KernelIdeal.LayerValue

end
-- ==== Proof.ReferenceValue.lean ====
/-
  The reference program's result as the layer of its arguments. The reference is one straight line of host
  operations: the contraction of the features and weights, then the same sixteen operations of the sparse product
  that the kernel program runs between its two gridded stretches, then the entrywise maximum with a zero array.
  Its generated run states the result as those operations composed; that composition is the layer, operation for
  operation — the two programs' dimension records carry the same lists, and the contraction's record is the plain
  one —, so the two terms are equal by unfolding the layer's definitions.
-/
import proofs.«163304_j30339648979444_2_alg».proof.ReferenceIdeal
import proofs.«163304_j30339648979444_2_alg».proof.Proof.Layer

noncomputable section

namespace Cert.ReferenceIdeal.LayerValue

open Idealize.ShloMosaic

variable {F : FTy → Type} [FloatOps F] [Cert.KernelIdeal.Facts] [Cert.ReferenceIdeal.Facts]

/-- The two programs' records of the gather's, the scatter's and the contraction's dimension numbers. -/
theorem gather_dims : Cert.ReferenceIdeal.gather_S100000x32_S1600000x1_S1600000x32_1_0_n_n_0_1_132
    = Cert.KernelIdeal.gather_S100000x32_S1600000x1_S1600000x32_1_0_n_n_0_1_132 := rfl
theorem scatter_dims : Cert.ReferenceIdeal.scatter_S100000x32_S1600000x1_S1600000x32_1_0_0_1
    = Cert.KernelIdeal.scatter_S100000x32_S1600000x1_S1600000x32_1_0_0_1 := rfl
theorem dot_dims : Cert.ReferenceIdeal.dot_S100000x128_S128x32_S100000x32_1_0_0_1_n_n = DotDims.plain 100000 128 32 := rfl

open Cert.ReferenceIdeal Cert.ReferenceIdeal.Facts₀ in
/-- The reference's composed term is the layer. -/
theorem result_eq (x : (⟨S100000x128, .f32⟩ : BufTy).Contents (Elt F)) (w : (⟨S128x32, .f32⟩ : BufTy).Contents (Elt F))
    (row col : (⟨S1600000, .i32⟩ : BufTy).Contents (Elt F)) (val : (⟨S1600000, .f32⟩ : BufTy).Contents (Elt F)) :
    maximumf (Host.scatterAdd scatter_S100000x32_S1600000x1_S1600000x32_1_0_0_1 (broadcastInDim S100000x32 ![] bcast_S_S100000x32 (constant (F := F) S_ .f32 0x00000000#32)) (broadcastInDim S1600000x1 ![0] bcast_S1600000_S1600000x1_0 row) (mulf (broadcastInDim S1600000x32 ![0, 1] bcast_S1600000x1_S1600000x32_0_1 (broadcastInDim S1600000x1 ![0] bcast_S1600000_S1600000x1_0 val)) (Host.gather gather_S100000x32_S1600000x1_S1600000x32_1_0_n_n_0_1_132 (Host.dotGeneral dot_S100000x128_S128x32_S100000x32_1_0_0_1_n_n none x w) (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))) (broadcastInDim S100000x32 ![] bcast_S_S100000x32 (constant (F := F) S_ .f32 0x00000000#32))
      = Cert.GraphLayer.layer (F := F) x w row col val := by
  rw [gather_dims, scatter_dims, dot_dims]
  rfl

end Cert.ReferenceIdeal.LayerValue

end
-- ==== Proof.lean ====
/-
  A graph-convolution layer, kernel program against reference, on the extended reals.

  Both programs compute  max( A · (X · W), 0 )  for features X : [100000,128], weights W : [128,32] and a sparse
  adjacency A given as 1600000 edges (row, col, val):  out[i] = Σ_{e : row_e = i} val_e · (X·W)[col_e].
  The reference does it in one line of host operations. The kernel program does the dense product X·W in a
  gridded stretch of ten row blocks (operands narrowed to a short float format, accumulated in f32 from zero),
  the sparse product with the same host operations as the reference, and the maximum with zero in a second gridded
  stretch of twenty-five row blocks.

  On the extended reals the narrowing is the identity and a product into a zero accumulator is the sum of the 128
  products, in whatever order, so each row block of the kernel's dense product is the same rows of the reference's
  contraction; the maximum is entrywise, so each row block of it is the same rows of the whole array's. The row
  blocks tile their arrays. Hence both programs end with the layer (Proof/Layer.lean) of the five arguments:
  the kernel program by reading its run back through its three stretches (Proof/KernelRun.lean,
  Proof/ProjectBlocks.lean, Proof/ReluBlocks.lean, Proof/KernelValue.lean), the reference by its run's composed
  term (Proof/ReferenceValue.lean). No law used needs a finite input: the precondition is never opened.
  The idealizing pass rewrote nothing in the kernel program, so that it is the sanctioned idealization holds trivially.
-/
import proofs.«163304_j30339648979444_2_alg».proof.Defs
import proofs.«163304_j30339648979444_2_alg».proof.Proof.Gen.Kernel
import proofs.«163304_j30339648979444_2_alg».proof.Proof.Gen.Kernel.Skeleton
import proofs.«163304_j30339648979444_2_alg».proof.Proof.Gen.Kernel.Launch
import proofs.«163304_j30339648979444_2_alg».proof.Proof.Gen.Kernel.Points
import proofs.«163304_j30339648979444_2_alg».proof.Proof.Gen.Kernel.Frame
import proofs.«163304_j30339648979444_2_alg».proof.Proof.Gen.KernelIdeal
import proofs.«163304_j30339648979444_2_alg».proof.Proof.Gen.KernelIdeal.Skeleton
import proofs.«163304_j30339648979444_2_alg».proof.Proof.Gen.KernelIdeal.Launch
import proofs.«163304_j30339648979444_2_alg».proof.Proof.Gen.KernelIdeal.Points
import proofs.«163304_j30339648979444_2_alg».proof.Proof.Gen.KernelIdeal.Frame
import proofs.«163304_j30339648979444_2_alg».proof.Proof.Gen.ReferenceIdeal
import proofs.«163304_j30339648979444_2_alg».proof.Proof.Gen.ReferenceIdeal.Run
import proofs.«163304_j30339648979444_2_alg».proof.Proof.Gen.Pre_finite_inputs
import proofs.«163304_j30339648979444_2_alg».proof.Proof.Layer
import proofs.«163304_j30339648979444_2_alg».proof.Proof.KernelRun
import proofs.«163304_j30339648979444_2_alg».proof.Proof.KernelValue
import proofs.«163304_j30339648979444_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading on the extended reals. -/
theorem preserves : Cert.preserves_Kernel_KernelIdeal := trivial

/-- From memories that agree on the five arguments both programs end with the layer of those arguments in their
    result arrays. -/
theorem algebraic : Cert.algebraic_KernelIdeal_ReferenceIdeal := by
  intro m ρ m' ρ' _ hagree
  refine ⟨fun c => Cert.GraphLayer.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.LayerValue.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    rw [Cert.ReferenceIdeal.LayerValue.result_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
